-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x2048 : Shape := ⟨2, ![512, 2048]⟩
abbrev S2048 : Shape := ⟨1, ![2048]⟩
abbrev S2048x256 : Shape := ⟨2, ![2048, 256]⟩
abbrev S256 : Shape := ⟨1, ![256]⟩
abbrev S256x256 : Shape := ⟨2, ![256, 256]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S2048x256 .f32) (main_arg5 : FVec F S256 .f32) (main_arg6 : FVec F S256x256 .f32) (main_arg7 : FVec F S256 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x4096 .f32) (main_arg2 : FVec F S512x2048 .f32) (main_arg3 : FVec F S2048 .f32) (main_arg4 : FVec F S2048x256 .f32) (main_arg5 : FVec F S256 .f32) (main_arg6 : FVec F S256x256 .f32) (main_arg7 : FVec F S256 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S4096x512 : Shape := ⟨2, ![4096, 512]⟩
abbrev S4096x4096 : Shape := ⟨2, ![4096, 4096]⟩
abbrev S512x2048 : Shape := ⟨2, ![512, 2048]⟩
abbrev S2048 : Shape := ⟨1, ![2048]⟩
abbrev S2048x256 : Shape := ⟨2, ![2048, 256]⟩
abbrev S256 : Shape := ⟨1, ![256]⟩
abbrev S256x256 : Shape := ⟨2, ![256, 256]⟩
abbrev S1x2048 : Shape := ⟨2, ![1, 2048]⟩
abbrev S1x256 : Shape := ⟨2, ![1, 256]⟩
abbrev S4096x256 : Shape := ⟨2, ![4096, 256]⟩
abbrev S512x4096 : Shape := ⟨2, ![512, 4096]⟩
abbrev S512x256 : Shape := ⟨2, ![512, 256]⟩
abbrev S512x512 : Shape := ⟨2, ![512, 512]⟩

abbrev nBuf : Space → Nat
  | .hbm => 19
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x2048, .f32⟩
  | .hbm, ⟨3, _⟩ => ⟨S2048, .f32⟩
  | .hbm, ⟨4, _⟩ => ⟨S2048x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x2048, .f32⟩
  | .hbm, ⟨9, _⟩ => ⟨S1x256, .f32⟩
  | .hbm, ⟨10, _⟩ => ⟨S1x256, .f32⟩
  | .hbm, ⟨11, _⟩ => ⟨S4096x512, .bf16⟩
  | .hbm, ⟨12, _⟩ => ⟨S512x2048, .bf16⟩
  | .hbm, ⟨13, _⟩ => ⟨S2048x256, .bf16⟩
  | .hbm, ⟨14, _⟩ => ⟨S4096x256, .bf16⟩
  | .hbm, ⟨15, _⟩ => ⟨S4096x4096, .bf16⟩
  | .hbm, ⟨16, _⟩ => ⟨S256x256, .bf16⟩
  | .hbm, ⟨17, _⟩ => ⟨S4096x256, .bf16⟩
  | .hbm, ⟨18, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S512x2048, .bf16⟩
  | .local _ .vmem, ⟨4, _⟩ => ⟨S1x2048, .f32⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S4096x256, .bf16⟩
  | .local _ .vmem, ⟨13, _⟩ => ⟨S1x256, .f32⟩
  | .local _ .vmem, ⟨14, _⟩ => ⟨S256x256, .bf16⟩
  | .local _ .vmem, ⟨15, _⟩ => ⟨S512x256, .bf16⟩
  | .local _ .vmem, ⟨16, _⟩ => ⟨S512x256, .bf16⟩
  | .local _ .vmem, ⟨17, _⟩ => ⟨S512x4096, .bf16⟩
  | .local _ .vmem, ⟨18, _⟩ => ⟨S512x4096, .bf16⟩
  | .local _ .vmem, ⟨19, _⟩ => ⟨S4096x256, .bf16⟩
  | .local _ .vmem, ⟨20, _⟩ => ⟨S1x256, .f32⟩
  | .local _ .vmem, ⟨21, _⟩ => ⟨S512x256, .f32⟩
  | .local _ .vmem, ⟨22, _⟩ => ⟨S512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6_0 : Ref sig .tc := ⟨.hbm, 14, rfl⟩
abbrev main_call0_v6_1 : Ref sig .tc := ⟨.hbm, 15, rfl⟩
abbrev main_call0_v7 : Ref sig .tc := ⟨.hbm, 16, rfl⟩
abbrev main_call0_v8 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2048_S1x2048 : S2048.ShapeCasts S1x2048
  shapeCasts_S256_S1x256 : S256.ShapeCasts S1x256
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S512x4096_S4096x512_S512x512_1_0_0_1_n_n_wf : DotDims.WF S512x4096 S4096x512 S512x512 [1] [0] [0] [1] [] []
  dot_S512x512_S512x2048_S512x2048_1_0_0_1_n_n_wf : DotDims.WF S512x512 S512x2048 S512x2048 [1] [0] [0] [1] [] []
  dot_S512x2048_S2048x256_S512x256_1_0_0_1_n_n_wf : DotDims.WF S512x2048 S2048x256 S512x256 [1] [0] [0] [1] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .bf16 = 32 ∨ (Rect.block (s := S2048x256) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x256.size a
  hwx0_5 : ∀ i : grid0.Coords, EltTy.bits .bf16 = 32 ∨ (Rect.block (s := S4096x256) S512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S4096x4096.size a
  hwx0_6 : ∀ i : grid0.Coords, EltTy.bits .bf16 = 32 ∨ (Rect.block (s := S4096x4096) S512x4096.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .bf16 = 32 ∨ (Rect.block (s := S4096x256) S512x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S4096x256.size a
  hwx2_3 : ∀ i : grid2.Coords, EltTy.bits .f32 = 32 ∨ (Rect.block (s := S4096x256) S512x256.size (cc2_transform_3 i) (hinb2_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6_0) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6_1) S512x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v6_1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6_0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v8) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v6_1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v8) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v2) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x2048 : Shape := ⟨2, ![512, 2048]⟩
abbrev S2048 : Shape := ⟨1, ![2048]⟩
abbrev S2048x256 : Shape := ⟨2, ![2048, 256]⟩
abbrev S256 : Shape := ⟨1, ![256]⟩
abbrev S256x256 : Shape := ⟨2, ![256, 256]⟩
abbrev S4096x2048 : Shape := ⟨2, ![4096, 2048]⟩
abbrev S1x2048 : Shape := ⟨2, ![1, 2048]⟩
abbrev S_ : Shape := ⟨0, ![]⟩
abbrev S4096x256 : Shape := ⟨2, ![4096, 256]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x2048, .f32⟩
  | .hbm, ⟨3, _⟩ => ⟨S2048, .f32⟩
  | .hbm, ⟨4, _⟩ => ⟨S2048x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .i1⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x256, .f32⟩
  | .hbm, ⟨21, _⟩ => ⟨S4096x256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S1x256, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call2_cst : Ref sig .tc := ⟨.hbm, 33, rfl⟩
abbrev main_call2_v0 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x512_S512x2048_S4096x2048_1_0_0_1_n_n_wf : DotDims.WF S4096x512 S512x2048 S4096x2048 [1] [0] [0] [1] [] []
  dot_S4096x4096_S4096x2048_S4096x2048_1_0_0_1_n_n_wf : DotDims.WF S4096x4096 S4096x2048 S4096x2048 [1] [0] [0] [1] [] []
  dot_S4096x2048_S2048x256_S4096x256_1_0_0_1_n_n_wf : DotDims.WF S4096x2048 S2048x256 S4096x256 [1] [0] [0] [1] [] []
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def dot_S4096x2048_S2048x256_S4096x256_1_0_0_1_n_n : DotDims S4096x2048 S2048x256 S4096x256 where
  lhsContracting := [1]
  rhsContracting := [0]
  lhsNonContracting := [0]
  rhsNonContracting := [1]
  lhsBatch := []
  rhsBatch := []
  wf := dot_S4096x2048_S2048x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.Algebra.lean ====
/-
  The mathematics both programs compute, on the extended reals, written over plain row and column indices.

  A graph-convolution layer is  act (A · (H · W) + b)  with  A  the 4096 × 4096 adjacency, and the network is
  three of them: a leaky rectifier (slope the f32 nearest 1/100) after the first, the rectifier max(·, 0)
  after the second and third.  One program forms the first layer's product as  (A · X) · W1,  the other as
  A · (X · W1).  The two agree whenever the entries of A, X and W1 are real numbers: both are the double sum of
  A r j · X j n · W1 n k  over j and n, and a finite double sum of reals may be taken in either order and a
  real factor moved across it (`reassoc`).  At an infinite entry that step can fail, which is why finiteness of
  the inputs is used exactly here and nowhere else.
-/
import Idealize.ShloMosaic.PureOps.Ideal
import Idealize.ShloMosaic.PureOps.Ideal.Laws
import Idealize.ShloMosaic.Lib.ValueIdx

noncomputable section

namespace Cert.Gcn

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (a · x) · w = a · (x · w) for a row a, a matrix x and a column w of REAL entries: both sides are the double
    sum of a j · x j n · w n. -/
theorem reassoc {J N : ℕ} (a : Fin J → EReal) (x : Fin J → Fin N → EReal) (w : Fin N → EReal)
    (ha : ∀ j, ∃ r : ℝ, a j = r) (hx : ∀ j n, ∃ r : ℝ, x j n = r) (hw : ∀ n, ∃ r : ℝ, w n = r) :
    ∑ n, (∑ j, a j * x j n) * w n = ∑ j, a j * ∑ n, x j n * w n := by
  choose a' ha' using ha
  choose x' hx' using hx
  choose w' hw' using hw
  simp only [ha', hx', hw', ← EReal.coe_mul, ← coe_sum]
  refine congrArg _ ?_
  simp only [Finset.sum_mul, Finset.mul_sum]
  rw [Finset.sum_comm]
  exact Finset.sum_congr rfl fun j _ => Finset.sum_congr rfl fun n _ => by ring

/-- The leaky rectifier both programs apply after the first layer: h where h > 0, else slope · h, the slope and
    the zero being the two f32 words both programs print. -/
def leaky (h : EReal) : EReal :=
  Scalar.select (FloatOps.cmpf (F := Ideal) (φ := .f32) .ogt h (Ideal.ofBits .f32 0x00000000#32)) h
    (Ideal.ofBits .f32 0x3C23D70A#32 * h)

/-- The rectifier max(h, 0), the zero being the f32 word both programs print. -/
def relu (h : EReal) : EReal := max h (Ideal.ofBits .f32 0x00000000#32)

/-- The first layer's activations with the product taken as (A · X) · W1. -/
def hidLeft (A : Fin 4096 → Fin 4096 → EReal) (X : Fin 4096 → Fin 512 → EReal) (W1 : Fin 512 → Fin 2048 → EReal)
    (B1 : Fin 2048 → EReal) (r : Fin 4096) (k : Fin 2048) : EReal :=
  leaky ((∑ n : Fin 512, (∑ j : Fin 4096, A r j * X j n) * W1 n k) + B1 k)

/-- The first layer's activations with the product taken as A · (X · W1). -/
def hidRight (A : Fin 4096 → Fin 4096 → EReal) (X : Fin 4096 → Fin 512 → EReal) (W1 : Fin 512 → Fin 2048 → EReal)
    (B1 : Fin 2048 → EReal) (r : Fin 4096) (k : Fin 2048) : EReal :=
  leaky ((∑ j : Fin 4096, A r j * ∑ n : Fin 512, X j n * W1 n k) + B1 k)

/-- A layer's support H · W. -/
def support {K : ℕ} (H : Fin 4096 → Fin K → EReal) (W : Fin K → Fin 256 → EReal) (r : Fin 4096) (q : Fin 256) : EReal :=
  ∑ k : Fin K, H r k * W k q

/-- A rectified layer from its support: max(A · S + b, 0). -/
def layerRelu (A : Fin 4096 → Fin 4096 → EReal) (S : Fin 4096 → Fin 256 → EReal) (B : Fin 256 → EReal)
    (r : Fin 4096) (q : Fin 256) : EReal :=
  relu ((∑ j : Fin 4096, A r j * S j q) + B q)

/-- The network from its first layer's activations. -/
def net (A : Fin 4096 → Fin 4096 → EReal) (H1 : Fin 4096 → Fin 2048 → EReal) (W2 : Fin 2048 → Fin 256 → EReal)
    (B2 : Fin 256 → EReal) (W3 : Fin 256 → Fin 256 → EReal) (B3 : Fin 256 → EReal) : Fin 4096 → Fin 256 → EReal :=
  layerRelu A (support (layerRelu A (support H1 W2) B2) W3) B3

/-- With real entries in A, X and W1 the two orders of the first layer's product give the same activations. -/
theorem hidLeft_eq_hidRight (A : Fin 4096 → Fin 4096 → EReal) (X : Fin 4096 → Fin 512 → EReal)
    (W1 : Fin 512 → Fin 2048 → EReal) (B1 : Fin 2048 → EReal)
    (hA : ∀ r j, ∃ x : ℝ, A r j = x) (hX : ∀ j n, ∃ x : ℝ, X j n = x) (hW : ∀ n k, ∃ x : ℝ, W1 n k = x) :
    hidLeft A X W1 B1 = hidRight A X W1 B1 := by
  funext r k
  unfold hidLeft hidRight
  rw [reassoc (A r) X (fun n => W1 n k) (hA r) hX (fun n => hW n k)]

/-- An array of rank two read by row and column. -/
def rows {n0 n1 : ℕ} (f : (⟨2, ![n0, n1]⟩ : Shape).Idx → EReal) : Fin n0 → Fin n1 → EReal :=
  fun r c => f (ValueIdx.ix2 r c)

/-- An array of rank one read by position. -/
def entries {n : ℕ} (f : (⟨1, ![n]⟩ : Shape).Idx → EReal) : Fin n → EReal :=
  fun k => f (ValueIdx.ix1 k)

/-- A function of row and column as an array of rank two. -/
def asArray {n0 n1 : ℕ} (g : Fin n0 → Fin n1 → EReal) : (⟨2, ![n0, n1]⟩ : Shape).Idx → EReal :=
  fun i => g ⟨(i 0).val, (i 0).isLt⟩ ⟨(i 1).val, (i 1).isLt⟩

theorem asArray_ix2 {n0 n1 : ℕ} (g : Fin n0 → Fin n1 → EReal) (r : Fin n0) (c : Fin n1) :
    asArray g (ValueIdx.ix2 r c) = g r c := rfl

/-- An array that agrees with g at every row and column is g as an array. -/
theorem eq_asArray {n0 n1 : ℕ} (f : (⟨2, ![n0, n1]⟩ : Shape).Idx → EReal) (g : Fin n0 → Fin n1 → EReal)
    (h : ∀ r c, f (ValueIdx.ix2 r c) = g r c) : f = asArray g := by
  funext i
  rw [ValueIdx.eq_ix2 i]
  exact h _ _

theorem rows_asArray {n0 n1 : ℕ} (g : Fin n0 → Fin n1 → EReal) : rows (asArray g) = g := rfl

end Cert.Gcn

end
-- ==== Proof.RefValue.lean ====
/-
  What the reference computes, read entry by entry: its result array is the three-layer network of
  `Cert.Gcn.net` with the first layer's product taken as A · (X · W1), each matrix product a sum over the
  contracted index, each bias added along the rows, the activations applied entry by entry.
-/
import proofs.«149278_g61065845015369_cont_9to1c4b_553_3_alg».proof.Proof.Gen.ReferenceIdeal.Read
import proofs.«149278_g61065845015369_cont_9to1c4b_553_3_alg».proof.Proof.Algebra

noncomputable section

namespace Cert.ReferenceIdeal.RefValue

open Cert.ReferenceIdeal Cert.ReferenceIdeal.Read Cert.Gcn Idealize.ShloMosaic Idealize.ShloMosaic.ValueIdx

/-- Two indices of a rank-two array are equal when their two coordinates are. -/
macro "idx2" : tactic => `(tactic| exact funext fun a => Fin.ext (by match a with | ⟨0, _⟩ => rfl | ⟨1, _⟩ => rfl))
macro "idx1" : tactic => `(tactic| exact funext fun a => Fin.ext (by match a with | ⟨0, _⟩ => rfl))

variable (x0 : FVec Ideal S4096x512 .f32) (x1 : FVec Ideal S4096x4096 .f32) (x2 : FVec Ideal S512x2048 .f32)
  (x3 : FVec Ideal S2048 .f32) (x4 : FVec Ideal S2048x256 .f32) (x5 : FVec Ideal S256 .f32)
  (x6 : FVec Ideal S256x256 .f32) (x7 : FVec Ideal S256 .f32)

/-! ## The operand indices of each product and broadcast, by row and column -/

theorem l0 (j : Fin 4096) (k : Fin 2048) (n : Fin 512) : lidx_main_v0 (ix2 j k) n = ix2 j n := by idx2
theorem r0 (j : Fin 4096) (k : Fin 2048) (n : Fin 512) : ridx_main_v0 (ix2 j k) n = ix2 n k := by idx2
theorem l1 (r : Fin 4096) (k : Fin 2048) (j : Fin 4096) : lidx_main_v1 (ix2 r k) j = ix2 r j := by idx2
theorem r1 (r : Fin 4096) (k : Fin 2048) (j : Fin 4096) : ridx_main_v1 (ix2 r k) j = ix2 j k := by idx2
theorem i3 (r : Fin 4096) (k : Fin 2048) : idx_main_v3 (ix2 r k) = ix2 (0 : Fin 1) k := by idx2
theorem i2 (k : Fin 2048) : idx_main_v2 (ix2 (0 : Fin 1) k) = ix1 k := by idx1
theorem l10 (r : Fin 4096) (q : Fin 256) (k : Fin 2048) : lidx_main_v10 (ix2 r q) k = ix2 r k := by idx2
theorem r10 (r : Fin 4096) (q : Fin 256) (k : Fin 2048) : ridx_main_v10 (ix2 r q) k = ix2 k q := by idx2
theorem l11 (r : Fin 4096) (q : Fin 256) (j : Fin 4096) : lidx_main_v11 (ix2 r q) j = ix2 r j := by idx2
theorem r11 (r : Fin 4096) (q : Fin 256) (j : Fin 4096) : ridx_main_v11 (ix2 r q) j = ix2 j q := by idx2
theorem i13 (r : Fin 4096) (q : Fin 256) : idx_main_v13 (ix2 r q) = ix2 (0 : Fin 1) q := by idx2
theorem i12 (q : Fin 256) : idx_main_v12 (ix2 (0 : Fin 1) q) = ix1 q := by idx1
theorem l16 (r : Fin 4096) (q : Fin 256) (k : Fin 256) : lidx_main_v16 (ix2 r q) k = ix2 r k := by idx2
theorem r16 (r : Fin 4096) (q : Fin 256) (k : Fin 256) : ridx_main_v16 (ix2 r q) k = ix2 k q := by idx2
theorem l17 (r : Fin 4096) (q : Fin 256) (j : Fin 4096) : lidx_main_v17 (ix2 r q) j = ix2 r j := by idx2
theorem r17 (r : Fin 4096) (q : Fin 256) (j : Fin 4096) : ridx_main_v17 (ix2 r q) j = ix2 j q := by idx2
theorem i19 (r : Fin 4096) (q : Fin 256) : idx_main_v19 (ix2 r q) = ix2 (0 : Fin 1) q := by idx2
theorem i18 (q : Fin 256) : idx_main_v18 (ix2 (0 : Fin 1) q) = ix1 q := by idx1

/-! ## The stages -/

/-- The first layer before its activation: A · (X · W1) + b1. -/
theorem pre1_at (r : Fin 4096) (k : Fin 2048) :
    val_main_v4 (F := Ideal) x0 x1 x2 x3 (ix2 r k)
      = (∑ j : Fin 4096, rows x1 r j * ∑ n : Fin 512, rows x0 j n * rows x2 n k) + entries x3 k := by
  rw [val_main_v4_apply, val_main_v1_apply, val_main_v3_apply, val_main_v2_apply, i3, i2]
  simp only [l1, r1, val_main_v0_apply, l0, r0]
  rfl

/-- The first layer's activations. -/
theorem hid1_at (r : Fin 4096) (k : Fin 2048) :
    val_main_v9 (F := Ideal) x0 x1 x2 x3 (ix2 r k) = hidRight (rows x1) (rows x0) (rows x2) (entries x3) r k := by
  rw [val_main_v9_apply, val_main_v6_apply, val_main_v8_apply, val_main_v5_apply, val_main_v7_apply,
    val_main_cst_apply, val_main_cst_0_apply, pre1_at]
  rfl

/-- The second layer's support H1 · W2. -/
theorem sup2_at (r : Fin 4096) (q : Fin 256) :
    val_main_v10 (F := Ideal) x0 x1 x2 x3 x4 (ix2 r q)
      = support (hidRight (rows x1) (rows x0) (rows x2) (entries x3)) (rows x4) r q := by
  rw [val_main_v10_apply]
  simp only [l10, r10, hid1_at]
  rfl

/-- The second layer's activations. -/
theorem hid2_at (r : Fin 4096) (q : Fin 256) :
    val_main_v15 (F := Ideal) x0 x1 x2 x3 x4 x5 (ix2 r q)
      = layerRelu (rows x1) (support (hidRight (rows x1) (rows x0) (rows x2) (entries x3)) (rows x4)) (entries x5) r q := by
  rw [val_main_v15_apply, val_main_v14_apply, val_main_v11_apply, val_main_v13_apply, val_main_v12_apply,
    val_main_call1_v0_apply, val_main_call1_cst_apply, i13, i12]
  simp only [l11, r11, sup2_at]
  rfl

/-- The third layer's support H2 · W3. -/
theorem sup3_at (r : Fin 4096) (q : Fin 256) :
    val_main_v16 (F := Ideal) x0 x1 x2 x3 x4 x5 x6 (ix2 r q)
      = support (layerRelu (rows x1) (support (hidRight (rows x1) (rows x0) (rows x2) (entries x3)) (rows x4)) (entries x5)) (rows x6) r q := by
  rw [val_main_v16_apply]
  simp only [l16, r16, hid2_at]
  rfl

/-- The result. -/
theorem out_at (r : Fin 4096) (q : Fin 256) :
    val_main_v21 (F := Ideal) x0 x1 x2 x3 x4 x5 x6 x7 (ix2 r q)
      = net (rows x1) (hidRight (rows x1) (rows x0) (rows x2) (entries x3)) (rows x4) (entries x5) (rows x6) (entries x7) r q := by
  rw [val_main_v21_apply, val_main_v20_apply, val_main_v17_apply, val_main_v19_apply, val_main_v18_apply,
    val_main_call2_v0_apply, val_main_call2_cst_apply, i19, i18]
  simp only [l17, r17, sup3_at]
  rfl

/-- The reference's result array is the network, the first layer's product taken as A · (X · W1). -/
theorem value :
    val_main_v21 (F := Ideal) x0 x1 x2 x3 x4 x5 x6 x7
      = asArray (net (rows x1) (hidRight (rows x1) (rows x0) (rows x2) (entries x3)) (rows x4) (entries x5) (rows x6) (entries x7)) :=
  eq_asArray _ _ fun r q => out_at x0 x1 x2 x3 x4 x5 x6 x7 r q

end Cert.ReferenceIdeal.RefValue

end
-- ==== Proof.KernelRun.lean ====
/-
  The kernel program's run with its RESULT named: every weakly fair execution terminates, nothing faulting,
  with the result buffer at what the last region's write-backs leave in it (the fold `Gen.W5` through the host
  stretches and the three regions) and the argument arrays as launched.  It is the several-region launch theorem
  of the library applied to the program's segments, read at the result buffer as well as at the arguments.
-/
import proofs.«149278_g61065845015369_cont_9to1c4b_553_3_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read beside the arguments. -/
theorem run_value : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Run

end
-- ==== Proof.Products.lean ====
/-
  The five matrix products of the three kernel bodies, each read at a row and a column: into a zero
  accumulator a product is the plain sum, over the contracted index, of the left operand's row entry times
  the right operand's column entry.
-/
import proofs.«149278_g61065845015369_cont_9to1c4b_553_3_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Products

open Cert.KernelIdeal Cert.KernelIdeal.Gen Idealize.ShloMosaic Idealize.ShloMosaic.ValueIdx

/-- A 512 × 4096 by 4096 × 512 product into a zero accumulator, at row p and column q: the sum over the contracted index. -/
theorem adj_x {φ₁ φ₂ : FTy} (l : FVec Ideal S512x4096 φ₁) (r : FVec Ideal S4096x512 φ₂) (p : Fin 512) (q : Fin 512) :
    matmul dot_S512x4096_S4096x512_S512x512_1_0_0_1_n_n none l r (constant S512x512 .f32 0x00000000#32) (ix2 p q) = ∑ k : Fin 4096, l (ix2 p k) * r (ix2 k q) := by
  simp only [matmul]
  rw [Ideal.matmul_constant_zero_apply, ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q) ((contrEquiv1 dot_S512x4096_S4096x512_S512x512_1_0_0_1_n_n 4096 rfl rfl).symm k) = ix2 p k := funext fun a => Fin.ext (by
    match a with
    | ⟨0, _⟩ =>
      show (dot_S512x4096_S4096x512_S512x512_1_0_0_1_n_n.lhsIdx (ix2 p q) _ 0).val = p.val
      unfold DotDims.lhsIdx
      rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
      rfl
    | ⟨1, _⟩ => exact (dot_S512x4096_S4096x512_S512x512_1_0_0_1_n_n.lhsIdx_val_of_single rfl _ _).trans hk)
  have er : dot_S512x4096_S4096x512_S512x512_1_0_0_1_n_n.rhsIdx (ix2 p q) ((contrEquiv1 dot_S512x4096_S4096x512_S512x512_1_0_0_1_n_n 4096 rfl rfl).symm k) = ix2 k q := funext fun a => Fin.ext (by
    match a with
    | ⟨0, _⟩ => exact (dot_S512x4096_S4096x512_S512x512_1_0_0_1_n_n.rhsIdx_val_of_single rfl _ _).trans hk
    | ⟨1, _⟩ =>
      show (dot_S512x4096_S4096x512_S512x512_1_0_0_1_n_n.rhsIdx (ix2 p q) _ 1).val = q.val
      unfold DotDims.rhsIdx
      rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
      rfl)
  rw [el, er]

/-- A 512 × 512 by 512 × 2048 product into a zero accumulator, at row p and column q: the sum over the contracted index. -/
theorem ax_w1 {φ₁ φ₂ : FTy} (l : FVec Ideal S512x512 φ₁) (r : FVec Ideal S512x2048 φ₂) (p : Fin 512) (q : Fin 2048) :
    matmul dot_S512x512_S512x2048_S512x2048_1_0_0_1_n_n none l r (constant S512x2048 .f32 0x00000000#32) (ix2 p q) = ∑ k : Fin 512, l (ix2 p k) * r (ix2 k q) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q) ((contrEquiv1 dot_S512x512_S512x2048_S512x2048_1_0_0_1_n_n 512 rfl rfl).symm k) = ix2 p k := funext fun a => Fin.ext (by
    match a with
    | ⟨0, _⟩ =>
      show (dot_S512x512_S512x2048_S512x2048_1_0_0_1_n_n.lhsIdx (ix2 p q) _ 0).val = p.val
      unfold DotDims.lhsIdx
      rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
      rfl
    | ⟨1, _⟩ => exact (dot_S512x512_S512x2048_S512x2048_1_0_0_1_n_n.lhsIdx_val_of_single rfl _ _).trans hk)
  have er : dot_S512x512_S512x2048_S512x2048_1_0_0_1_n_n.rhsIdx (ix2 p q) ((contrEquiv1 dot_S512x512_S512x2048_S512x2048_1_0_0_1_n_n 512 rfl rfl).symm k) = ix2 k q := funext fun a => Fin.ext (by
    match a with
    | ⟨0, _⟩ => exact (dot_S512x512_S512x2048_S512x2048_1_0_0_1_n_n.rhsIdx_val_of_single rfl _ _).trans hk
    | ⟨1, _⟩ =>
      show (dot_S512x512_S512x2048_S512x2048_1_0_0_1_n_n.rhsIdx (ix2 p q) _ 1).val = q.val
      unfold DotDims.rhsIdx
      rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
      rfl)
  rw [el, er]

/-- A 512 × 2048 by 2048 × 256 product into a zero accumulator, at row p and column q: the sum over the contracted index. -/
theorem h_w2 {φ₁ φ₂ : FTy} (l : FVec Ideal S512x2048 φ₁) (r : FVec Ideal S2048x256 φ₂) (p : Fin 512) (q : Fin 256) :
    matmul dot_S512x2048_S2048x256_S512x256_1_0_0_1_n_n none l r (constant S512x256 .f32 0x00000000#32) (ix2 p q) = ∑ k : Fin 2048, l (ix2 p k) * r (ix2 k q) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p q) ((contrEquiv1 dot_S512x2048_S2048x256_S512x256_1_0_0_1_n_n 2048 rfl rfl).symm k) = ix2 p k := funext fun a => Fin.ext (by
    match a with
    | ⟨0, _⟩ =>
      show (dot_S512x2048_S2048x256_S512x256_1_0_0_1_n_n.lhsIdx (ix2 p q) _ 0).val = p.val
      unfold DotDims.lhsIdx
      rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
      rfl
    | ⟨1, _⟩ => exact (dot_S512x2048_S2048x256_S512x256_1_0_0_1_n_n.lhsIdx_val_of_single rfl _ _).trans hk)
  have er : dot_S512x2048_S2048x256_S512x256_1_0_0_1_n_n.rhsIdx (ix2 p q) ((contrEquiv1 dot_S512x2048_S2048x256_S512x256_1_0_0_1_n_n 2048 rfl rfl).symm k) = ix2 k q := funext fun a => Fin.ext (by
    match a with
    | ⟨0, _⟩ => exact (dot_S512x2048_S2048x256_S512x256_1_0_0_1_n_n.rhsIdx_val_of_single rfl _ _).trans hk
    | ⟨1, _⟩ =>
      show (dot_S512x2048_S2048x256_S512x256_1_0_0_1_n_n.rhsIdx (ix2 p q) _ 1).val = q.val
      unfold DotDims.rhsIdx
      rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
      rfl)
  rw [el, er]

/-- A 512 × 4096 by 4096 × 256 product into a zero accumulator, at row p and column q: the sum over the contracted index. -/
theorem adj_s {φ₁ φ₂ : FTy} (l : FVec Ideal S512x4096 φ₁) (r : FVec Ideal S4096x256 φ₂) (p : Fin 512) (q : Fin 256) :
    matmul dot_S512x4096_S4096x256_S512x256_1_0_0_1_n_n none l r (constant S512x256 .f32 0x00000000#32) (ix2 p q) = ∑ k : Fin 4096, l (ix2 p k) * r (ix2 k q) := by
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p q) ((contrEquiv1 dot_S512x4096_S4096x256_S512x256_1_0_0_1_n_n 4096 rfl rfl).symm k) = ix2 p k := funext fun a => Fin.ext (by
    match a with
    | ⟨0, _⟩ =>
      show (dot_S512x4096_S4096x256_S512x256_1_0_0_1_n_n.lhsIdx (ix2 p q) _ 0).val = p.val
      unfold DotDims.lhsIdx
      rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
      rfl
    | ⟨1, _⟩ => exact (dot_S512x4096_S4096x256_S512x256_1_0_0_1_n_n.lhsIdx_val_of_single rfl _ _).trans hk)
  have er : dot_S512x4096_S4096x256_S512x256_1_0_0_1_n_n.rhsIdx (ix2 p q) ((contrEquiv1 dot_S512x4096_S4096x256_S512x256_1_0_0_1_n_n 4096 rfl rfl).symm k) = ix2 k q := funext fun a => Fin.ext (by
    match a with
    | ⟨0, _⟩ => exact (dot_S512x4096_S4096x256_S512x256_1_0_0_1_n_n.rhsIdx_val_of_single rfl _ _).trans hk
    | ⟨1, _⟩ =>
      show (dot_S512x4096_S4096x256_S512x256_1_0_0_1_n_n.rhsIdx (ix2 p q) _ 1).val = q.val
      unfold DotDims.rhsIdx
      rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
      rfl)
  rw [el, er]

/-- A 512 × 256 by 256 × 256 product into a zero accumulator, at row p and column q: the sum over the contracted index. -/
theorem h_w3 {φ₁ φ₂ : FTy} (l : FVec Ideal S512x256 φ₁) (r : FVec Ideal S256x256 φ₂) (p : Fin 512) (q : Fin 256) :
    matmul dot_S512x256_S256x256_S512x256_1_0_0_1_n_n none l r (constant S512x256 .f32 0x00000000#32) (ix2 p q) = ∑ k : Fin 256, l (ix2 p k) * r (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ =>
      show (dot_S512x256_S256x256_S512x256_1_0_0_1_n_n.lhsIdx (ix2 p q) _ 0).val = p.val
      unfold DotDims.lhsIdx
      rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
      rfl
    | ⟨1, _⟩ => exact (dot_S512x256_S256x256_S512x256_1_0_0_1_n_n.lhsIdx_val_of_single rfl _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (dot_S512x256_S256x256_S512x256_1_0_0_1_n_n.rhsIdx_val_of_single rfl _ _).trans hk
    | ⟨1, _⟩ =>
      show (dot_S512x256_S256x256_S512x256_1_0_0_1_n_n.rhsIdx (ix2 p q) _ 1).val = q.val
      unfold DotDims.rhsIdx
      rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
      rfl)
  rw [el, er]

end Cert.KernelIdeal.Products

end
-- ==== Proof.Body.lean ====
/-
  The three kernel bodies as arithmetic, read at a row p of the 512-row block and a column q.

  The first body forms, from a 512 × 4096 block a of the adjacency, (a · X) · W1 + b1, applies the leaky
  rectifier, and multiplies by W2.  The second forms a · S + b2, rectifies, and multiplies by W3.  The third
  forms a · S + b3 and rectifies.  A change of float format is the identity on the extended reals, a cast to
  the same shape is the identity, and the one-row bias is read at row 0 whatever p.
-/
import proofs.«149278_g61065845015369_cont_9to1c4b_553_3_alg».proof.Proof.Gen.KernelIdeal.Skeleton
import proofs.«149278_g61065845015369_cont_9to1c4b_553_3_alg».proof.Proof.Algebra
import proofs.«149278_g61065845015369_cont_9to1c4b_553_3_alg».proof.Proof.Products
import Idealize.ShloMosaic.Lib.ValueLayout

noncomputable section

namespace Cert.KernelIdeal.Body

open Cert.KernelIdeal Cert.KernelIdeal.Gen Cert.KernelIdeal.Products Cert.Gcn Idealize.ShloMosaic Idealize.ShloMosaic.ValueIdx

/-- The first body's stored block: leaky((a · X) · W1 + b1) · W2. -/
theorem layer1_at (x0 : S512x4096.Idx → EReal) (x1 : S4096x512.Idx → EReal) (x2 : S512x2048.Idx → EReal)
    (x3 : S1x2048.Idx → EReal) (x4 : S2048x256.Idx → EReal) (p : Fin 512) (q : Fin 256) :
    k0_pay2 (F := Ideal) x0 x1 x2 x3 x4 (ix2 p q)
      = ∑ k : Fin 2048, leaky ((∑ n : Fin 512, (∑ j : Fin 4096, x0 (ix2 p j) * x1 (ix2 j n)) * x2 (ix2 n k))
          + x3 (ix2 (0 : Fin 1) k)) * x4 (ix2 k q) := by
  unfold k0_pay2 k0_pay1
  dsimp only
  simp only [truncf_apply, select_apply, cmpf_apply, mulf_apply, addf_apply, broadcast_apply, shapeCast_self,
    h_w2, ax_w1, adj_x, broadcastTo_1b_ab_apply]
  rfl

/-- The second body's stored block: max(a · S + b2, 0) · W3. -/
theorem layer2_at (x0 : S512x4096.Idx → EReal) (x1 : S4096x256.Idx → EReal) (x2 : S1x256.Idx → EReal)
    (x3 : S256x256.Idx → EReal) (p : Fin 512) (q : Fin 256) :
    k1_pay1 (F := Ideal) x0 x1 x2 x3 (ix2 p q)
      = ∑ k : Fin 256, relu ((∑ j : Fin 4096, x0 (ix2 p j) * x1 (ix2 j k)) + x2 (ix2 (0 : Fin 1) k)) * x3 (ix2 k q) := by
  unfold k1_pay1
  simp only [truncf_apply, maximumf_apply, addf_apply, broadcast_apply, shapeCast_self,
    h_w3, adj_s, broadcastTo_1b_ab_apply]
  rfl

/-- The third body's stored block: max(a · S + b3, 0). -/
theorem layer3_at (x0 : S512x4096.Idx → EReal) (x1 : S4096x256.Idx → EReal) (x2 : S1x256.Idx → EReal)
    (p : Fin 512) (q : Fin 256) :
    k2_pay1 (F := Ideal) x0 x1 x2 (ix2 p q)
      = relu ((∑ j : Fin 4096, x0 (ix2 p j) * x1 (ix2 j q)) + x2 (ix2 (0 : Fin 1) q)) := by
  unfold k2_pay1
  simp only [maximumf_apply, addf_apply, broadcast_apply, shapeCast_self, adj_s, broadcastTo_1b_ab_apply]
  rfl

/-- The first body's second stored block is the adjacency block itself. -/
theorem copy_at (x0 : S512x4096.Idx → EReal) : k0_pay1 (F := Ideal) x0 = x0 := rfl

end Cert.KernelIdeal.Body

end
-- ==== Proof.Blocks.lean ====
/-
  Each kernel body's stored block is a block of rows of ONE whole-array function.

  The grid walks the adjacency in eight blocks of 512 rows; at block t the body sees rows 512·t … 512·t + 511 of
  the adjacency and the whole of every other operand.  So row p of what it stores is row 512·t + p of the
  layer's whole result: `stage1`, `stage2`, `stage3` below, each a layer of `Cert.Gcn` read off its operand
  arrays (the bias arrays have the one row the host reshapes them to).
-/
import proofs.«149278_g61065845015369_cont_9to1c4b_553_3_alg».proof.Proof.Body

noncomputable section

namespace Cert.KernelIdeal.Blocks

open Cert.KernelIdeal Cert.KernelIdeal.Gen Cert.KernelIdeal.Body Cert.Gcn Idealize.ShloMosaic Idealize.ShloMosaic.ValueIdx

/-- Row p of the t-th block of 512 rows is row 512·t + p of the array. -/
def row (t : Fin 8) (p : Fin 512) : Fin 4096 := ⟨t.val * 512 + p.val, by have := t.isLt; have := p.isLt; omega⟩

theorem row_val (t : Fin 8) (p : Fin 512) : (row t p).val = t.val * 512 + p.val := rfl

/-- A one-row bias array read by column. -/
def bias {n : ℕ} (B : (⟨2, ![1, n]⟩ : Shape).Idx → EReal) : Fin n → EReal := fun k => B (ix2 (0 : Fin 1) k)

/-- The first kernel's whole result: the second layer's support, the first layer's product taken as (A · X) · W1. -/
def stage1 (A : S4096x4096.Idx → EReal) (X : S4096x512.Idx → EReal) (W1 : S512x2048.Idx → EReal)
    (B1 : S1x2048.Idx → EReal) (W2 : S2048x256.Idx → EReal) : S4096x256.Idx → EReal :=
  asArray (support (hidLeft (rows A) (rows X) (rows W1) (bias B1)) (rows W2))

/-- The second kernel's whole result: the third layer's support from the second layer's. -/
def stage2 (A : S4096x4096.Idx → EReal) (S : S4096x256.Idx → EReal) (B : S1x256.Idx → EReal)
    (W : S256x256.Idx → EReal) : S4096x256.Idx → EReal :=
  asArray (support (layerRelu (rows A) (rows S) (bias B)) (rows W))

/-- The third kernel's whole result: the last rectified layer from its support. -/
def stage3 (A : S4096x4096.Idx → EReal) (S : S4096x256.Idx → EReal) (B : S1x256.Idx → EReal) : S4096x256.Idx → EReal :=
  asArray (layerRelu (rows A) (rows S) (bias B))

/-- The first body on block t of the adjacency and the whole other operands stores block t of `stage1`. -/
theorem block1 (A : S4096x4096.Idx → EReal) (X : S4096x512.Idx → EReal) (W1 : S512x2048.Idx → EReal)
    (B1 : S1x2048.Idx → EReal) (W2 : S2048x256.Idx → EReal)
    (x0 : S512x4096.Idx → EReal) (x1 : S4096x512.Idx → EReal) (x2 : S512x2048.Idx → EReal)
    (x3 : S1x2048.Idx → EReal) (x4 : S2048x256.Idx → EReal) (t : Fin 8)
    (h0 : ∀ p j, x0 (ix2 p j) = A (ix2 (row t p) j)) (h1 : x1 = X) (h2 : x2 = W1) (h3 : x3 = B1) (h4 : x4 = W2)
    (p : Fin 512) (q : Fin 256) :
    k0_pay2 (F := Ideal) x0 x1 x2 x3 x4 (ix2 p q) = stage1 A X W1 B1 W2 (ix2 (row t p) q) := by
  subst h1 h2 h3 h4
  rw [layer1_at]
  simp only [h0]
  rfl

/-- The second body on block t of the adjacency and the whole other operands stores block t of `stage2`. -/
theorem block2 (A : S4096x4096.Idx → EReal) (S : S4096x256.Idx → EReal) (B : S1x256.Idx → EReal) (W : S256x256.Idx → EReal)
    (x0 : S512x4096.Idx → EReal) (x1 : S4096x256.Idx → EReal) (x2 : S1x256.Idx → EReal) (x3 : S256x256.Idx → EReal) (t : Fin 8)
    (h0 : ∀ p j, x0 (ix2 p j) = A (ix2 (row t p) j)) (h1 : x1 = S) (h2 : x2 = B) (h3 : x3 = W)
    (p : Fin 512) (q : Fin 256) :
    k1_pay1 (F := Ideal) x0 x1 x2 x3 (ix2 p q) = stage2 A S B W (ix2 (row t p) q) := by
  subst h1 h2 h3
  rw [layer2_at]
  simp only [h0]
  rfl

/-- The third body on block t of the adjacency and the whole other operands stores block t of `stage3`. -/
theorem block3 (A : S4096x4096.Idx → EReal) (S : S4096x256.Idx → EReal) (B : S1x256.Idx → EReal)
    (x0 : S512x4096.Idx → EReal) (x1 : S4096x256.Idx → EReal) (x2 : S1x256.Idx → EReal) (t : Fin 8)
    (h0 : ∀ p j, x0 (ix2 p j) = A (ix2 (row t p) j)) (h1 : x1 = S) (h2 : x2 = B)
    (p : Fin 512) (q : Fin 256) :
    k2_pay1 (F := Ideal) x0 x1 x2 (ix2 p q) = stage3 A S B (ix2 (row t p) q) := by
  subst h1 h2
  rw [layer3_at]
  simp only [h0]
  rfl

end Cert.KernelIdeal.Blocks

end
-- ==== Proof.Region0.lean ====
/-
  The first kernel's two result arrays as whole-array functions of what the region finds in its operand arrays:
  the second layer's support (`Blocks.stage1`), and a copy of the adjacency.  Each grid point writes back one
  block of 512 rows; the eight blocks tile the array, so the array ends as the one function whose blocks they are.
-/
import proofs.«149278_g61065845015369_cont_9to1c4b_553_3_alg».proof.Proof.Gen.KernelIdeal.Frame
import proofs.«149278_g61065845015369_cont_9to1c4b_553_3_alg».proof.Proof.Blocks

noncomputable section

namespace Cert.KernelIdeal.Region0

open Cert.KernelIdeal Cert.KernelIdeal.Gen Cert.KernelIdeal.Blocks Cert.Gcn
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- A grid point as a number below eight. -/
def pt (t : Fin cfg0.N) : Fin 8 := ⟨t.val, lt_of_lt_of_eq t.isLt N_0⟩

/-- The printed index maps over the grid: the adjacency's and the outputs' blocks move down one block of rows per
    point; every other operand is staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Window 0's block at point t is rows 512·t … 512·t + 511 of its array. -/
theorem read0 (c : Dev nD) (t : Fin cfg0.N) (p : Fin 512) (j : Fin 4096) :
    iblk0 V c 0 t (ix2 p j) = V c main_arg1 (ix2 (row (pt t) p) j) := by
  have e := idx_facts t
  show V c main_arg1 (((cfg0.win 0).blk t).view.emb (ix2 p j)) = _
  refine congrArg (V c main_arg1) (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * j.val = j.val; omega

/-- Window 1's block is its whole array at every point. -/
theorem read1 (c : Dev nD) (t : Fin cfg0.N) : (iblk0 V c 1 t : S4096x512.Idx → EReal) = V c main_call0_v3 := by
  have e := idx_facts t
  funext y
  show V c main_call0_v3 (((cfg0.win 1).blk t).view.emb y) = V c main_call0_v3 y
  refine congrArg (V c main_call0_v3) (funext fun a => Fin.ext ?_)
  match a with
  | ⟨0, _⟩ => show win0_1.index t (0 : Fin 2) * 4096 + 1 * (y 0).val = (y 0).val; omega
  | ⟨1, _⟩ => show win0_1.index t (1 : Fin 2) * 512 + 1 * (y 1).val = (y 1).val; omega

/-- Window 2's block is its whole array at every point. -/
theorem read2 (c : Dev nD) (t : Fin cfg0.N) : (iblk0 V c 2 t : S512x2048.Idx → EReal) = V c main_call0_v4 := by
  have e := idx_facts t
  funext y
  show V c main_call0_v4 (((cfg0.win 2).blk t).view.emb y) = V c main_call0_v4 y
  refine congrArg (V c main_call0_v4) (funext fun a => Fin.ext ?_)
  match a with
  | ⟨0, _⟩ => show win0_2.index t (0 : Fin 2) * 512 + 1 * (y 0).val = (y 0).val; omega
  | ⟨1, _⟩ => show win0_2.index t (1 : Fin 2) * 2048 + 1 * (y 1).val = (y 1).val; omega

/-- Window 3's block is its whole array at every point. -/
theorem read3 (c : Dev nD) (t : Fin cfg0.N) : (iblk0 V c 3 t : S1x2048.Idx → EReal) = V c main_call0_v0 := by
  have e := idx_facts t
  funext y
  show V c main_call0_v0 (((cfg0.win 3).blk t).view.emb y) = V c main_call0_v0 y
  refine congrArg (V c main_call0_v0) (funext fun a => Fin.ext ?_)
  match a with
  | ⟨0, _⟩ => show win0_3.index t (0 : Fin 2) * 1 + 1 * (y 0).val = (y 0).val; omega
  | ⟨1, _⟩ => show win0_3.index t (1 : Fin 2) * 2048 + 1 * (y 1).val = (y 1).val; omega

/-- Window 4's block is its whole array at every point. -/
theorem read4 (c : Dev nD) (t : Fin cfg0.N) : (iblk0 V c 4 t : S2048x256.Idx → EReal) = V c main_call0_v5 := by
  have e := idx_facts t
  funext y
  show V c main_call0_v5 (((cfg0.win 4).blk t).view.emb y) = V c main_call0_v5 y
  refine congrArg (V c main_call0_v5) (funext fun a => Fin.ext ?_)
  match a with
  | ⟨0, _⟩ => show win0_4.index t (0 : Fin 2) * 2048 + 1 * (y 0).val = (y 0).val; omega
  | ⟨1, _⟩ => show win0_4.index t (1 : Fin 2) * 256 + 1 * (y 1).val = (y 1).val; omega

/-- An entry of output window 5's block at point t sits in the array at row 512·t + p. -/
theorem emb5 (t : Fin cfg0.N) (p : Fin 512) (q : Fin 256) :
    ((cfg0.win 5).blk t).view.emb (ix2 p q) = ix2 (row (pt t) p) q := by
  have e := idx_facts t
  refine funext fun a => Fin.ext ?_
  match a with
  | ⟨0, _⟩ => show win0_5.index t (0 : Fin 2) * 512 + 1 * p.val = t.val * 512 + p.val; omega
  | ⟨1, _⟩ => show win0_5.index t (1 : Fin 2) * 256 + 1 * q.val = q.val; omega

/-- An index of the array is in point t's block iff each coordinate is in the block's range on its axis. -/
theorem mem_blk5 (t : Fin cfg0.N) (i : S4096x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_call0_v6_0).slice (win0_5.rect t)).set ↔ _
  rw [View.set_slice_whole, Rect.mem_set_unit]
  exact Iff.rfl

/-- Every row of the array is in the block of the point row / 512, which writes back. -/
theorem cover5 (i : S4096x256.Idx) : ∃ t : Fin cfg0.N, (cfg0.win 5).flush t = true ∧ i ∈ ((cfg0.win 5).blk t).view.set := by
  have hi0 : (i 0).val < 4096 := (i 0).isLt
  have hi1 : (i 1).val < 256 := (i 1).isLt
  have hN : cfg0.N = 8 := N_0
  let t : Fin cfg0.N := ⟨(i 0).val / 512, by rw [hN]; omega⟩
  have e := idx_facts t
  have ht : t.val = (i 0).val / 512 := rfl
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- An entry of output window 6's block at point t sits in the array at row 512·t + p. -/
theorem emb6 (t : Fin cfg0.N) (p : Fin 512) (q : Fin 4096) :
    ((cfg0.win 6).blk t).view.emb (ix2 p q) = ix2 (row (pt t) p) q := by
  have e := idx_facts t
  refine funext fun a => Fin.ext ?_
  match a with
  | ⟨0, _⟩ => show win0_6.index t (0 : Fin 2) * 512 + 1 * p.val = t.val * 512 + p.val; omega
  | ⟨1, _⟩ => show win0_6.index t (1 : Fin 2) * 4096 + 1 * q.val = q.val; omega

/-- An index of the array is in point t's block iff each coordinate is in the block's range on its axis. -/
theorem mem_blk6 (t : Fin cfg0.N) (i : S4096x4096.Idx) :
    i ∈ ((cfg0.win 6).blk t).view.set ↔ ∀ a : Fin 2, win0_6.index t a * S512x4096.size a ≤ (i a).val ∧ (i a).val < win0_6.index t a * S512x4096.size a + S512x4096.size a := by
  show i ∈ ((View.whole main_call0_v6_1).slice (win0_6.rect t)).set ↔ _
  rw [View.set_slice_whole, Rect.mem_set_unit]
  exact Iff.rfl

/-- Every row of the array is in the block of the point row / 512, which writes back. -/
theorem cover6 (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  have hN : cfg0.N = 8 := N_0
  let t : Fin cfg0.N := ⟨(i 0).val / 512, by rw [hN]; omega⟩
  have e := idx_facts t
  have ht : t.val = (i 0).val / 512 := rfl
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 4096 ≤ (i 1).val ∧ (i 1).val < win0_6.index t (1 : Fin 2) * 4096 + 4096; omega

/-- What point t writes back to the support's array is block t of `stage1` of the operand arrays. -/
theorem flushed5_eq (c : Dev nD) (t : Fin cfg0.N) :
    (dat0 V c).flushed 5 t = ((cfg0.win 5).blk t).view.read (Elt Ideal)
      (stage1 (V c main_arg1) (V c main_call0_v3) (V c main_call0_v4) (V c main_call0_v0) (V c main_call0_v5)) := by
  show (cfg0.win 5).cut (grid0.coords t) ((dat0 V c).after 5 t) = _
  rw [after0_5]
  unfold out0_5
  rw [View.canon_unit_zero hz]
  simp only [View.ld_unit_zero (S := S512x4096) hz, View.ld_unit_zero (S := S4096x512) hz, View.ld_unit_zero (S := S512x2048) hz,
    View.ld_unit_zero (S := S1x2048) hz, View.ld_unit_zero (S := S2048x256) hz]
  funext y
  obtain ⟨p, q, rfl⟩ : ∃ (p : Fin 512) (q : Fin 256), y = ix2 p q := ⟨y 0, y 1, eq_ix2 y⟩
  show k0_pay2 (iblk0 V c 0 t) (iblk0 V c 1 t) (iblk0 V c 2 t) (iblk0 V c 3 t) (iblk0 V c 4 t) (ix2 p q)
    = stage1 (V c main_arg1) (V c main_call0_v3) (V c main_call0_v4) (V c main_call0_v0) (V c main_call0_v5)
        (((cfg0.win 5).blk t).view.emb (ix2 p q))
  rw [emb5]
  exact block1 (V c main_arg1) (V c main_call0_v3) (V c main_call0_v4) (V c main_call0_v0) (V c main_call0_v5)
    (iblk0 V c 0 t) (iblk0 V c 1 t) (iblk0 V c 2 t) (iblk0 V c 3 t) (iblk0 V c 4 t) (pt t)
    (read0 V c t) (read1 V c t) (read2 V c t) (read3 V c t) (read4 V c t) p q

/-- The support's array after the region. -/
theorem final5 (c : Dev nD) :
    (dat0 V c).arrAt 5 cfg0.N
      = stage1 (V c main_arg1) (V c main_call0_v3) (V c main_call0_v4) (V c main_call0_v0) (V c main_call0_v5) :=
  (dat0 V c).arrAt_eq_of_cover 5 _ (fun t _ => flushed5_eq V c t) cover5

/-- What point t writes back to the adjacency's copy is block t of the adjacency. -/
theorem flushed6_eq (c : Dev nD) (t : Fin cfg0.N) :
    (dat0 V c).flushed 6 t = ((cfg0.win 6).blk t).view.read (Elt Ideal) (V c main_arg1 : S4096x4096.Idx → EReal) := by
  show (cfg0.win 6).cut (grid0.coords t) ((dat0 V c).after 6 t) = _
  rw [after0_6]
  unfold out0_6
  rw [View.canon_unit_zero hz]
  simp only [View.ld_unit_zero (S := S512x4096) hz]
  funext y
  obtain ⟨p, j, rfl⟩ : ∃ (p : Fin 512) (j : Fin 4096), y = ix2 p j := ⟨y 0, y 1, eq_ix2 y⟩
  show iblk0 V c 0 t (ix2 p j) = V c main_arg1 (((cfg0.win 6).blk t).view.emb (ix2 p j))
  rw [emb6, read0]

/-- The adjacency's copy after the region is the adjacency. -/
theorem final6 (c : Dev nD) : (dat0 V c).arrAt 6 cfg0.N = (V c main_arg1 : S4096x4096.Idx → EReal) :=
  (dat0 V c).arrAt_eq_of_cover 6 _ (fun t _ => flushed6_eq V c t) cover6

end Cert.KernelIdeal.Region0

end
-- ==== Proof.Region1.lean ====
/-
  The second kernel's result array as a whole-array function of what the region finds in its operand arrays:
  the third layer's support (`Blocks.stage2`).  Each grid point writes back one block of 512 rows; the eight
  blocks tile the array, so the array ends as the one function whose blocks they are.
-/
import proofs.«149278_g61065845015369_cont_9to1c4b_553_3_alg».proof.Proof.Gen.KernelIdeal.Frame
import proofs.«149278_g61065845015369_cont_9to1c4b_553_3_alg».proof.Proof.Blocks

noncomputable section

namespace Cert.KernelIdeal.Region1

open Cert.KernelIdeal Cert.KernelIdeal.Gen Cert.KernelIdeal.Blocks Cert.Gcn
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- A grid point as a number below eight. -/
def pt (t : Fin cfg1.N) : Fin 8 := ⟨t.val, lt_of_lt_of_eq t.isLt N_1⟩

/-- The printed index maps over the grid: the adjacency's and the output's blocks move down one block of rows per
    point; every other operand is staged whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t is rows 512·t … 512·t + 511 of its array. -/
theorem read0 (c : Dev nD) (t : Fin cfg1.N) (p : Fin 512) (j : Fin 4096) :
    iblk1 V c 0 t (ix2 p j) = V c main_call0_v6_1 (ix2 (row (pt t) p) j) := by
  have e := idx_facts t
  show V c main_call0_v6_1 (((cfg1.win 0).blk t).view.emb (ix2 p j)) = _
  refine congrArg (V c main_call0_v6_1) (funext fun a => Fin.ext ?_)
  match a with
  | ⟨0, _⟩ => show win1_0.index t (0 : Fin 2) * 512 + 1 * p.val = t.val * 512 + p.val; omega
  | ⟨1, _⟩ => show win1_0.index t (1 : Fin 2) * 4096 + 1 * j.val = j.val; omega

/-- Window 1's block is its whole array at every point. -/
theorem read1 (c : Dev nD) (t : Fin cfg1.N) : (iblk1 V c 1 t : S4096x256.Idx → EReal) = V c main_call0_v6_0 := by
  have e := idx_facts t
  funext y
  show V c main_call0_v6_0 (((cfg1.win 1).blk t).view.emb y) = V c main_call0_v6_0 y
  refine congrArg (V c main_call0_v6_0) (funext fun a => Fin.ext ?_)
  match a with
  | ⟨0, _⟩ => show win1_1.index t (0 : Fin 2) * 4096 + 1 * (y 0).val = (y 0).val; omega
  | ⟨1, _⟩ => show win1_1.index t (1 : Fin 2) * 256 + 1 * (y 1).val = (y 1).val; omega

/-- Window 2's block is its whole array at every point. -/
theorem read2 (c : Dev nD) (t : Fin cfg1.N) : (iblk1 V c 2 t : S1x256.Idx → EReal) = V c main_call0_v1 := by
  have e := idx_facts t
  funext y
  show V c main_call0_v1 (((cfg1.win 2).blk t).view.emb y) = V c main_call0_v1 y
  refine congrArg (V c main_call0_v1) (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- Window 3's block is its whole array at every point. -/
theorem read3 (c : Dev nD) (t : Fin cfg1.N) : (iblk1 V c 3 t : S256x256.Idx → EReal) = V c main_call0_v7 := by
  have e := idx_facts t
  funext y
  show V c main_call0_v7 (((cfg1.win 3).blk t).view.emb y) = V c main_call0_v7 y
  refine congrArg (V c main_call0_v7) (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- An entry of output window 4's block at point t sits in the array at row 512·t + p. -/
theorem emb4 (t : Fin cfg1.N) (p : Fin 512) (q : Fin 256) :
    ((cfg1.win 4).blk t).view.emb (ix2 p q) = ix2 (row (pt t) p) q := by
  have e := idx_facts t
  refine funext fun a => Fin.ext ?_
  match a with
  | ⟨0, _⟩ => show win1_4.index t (0 : Fin 2) * 512 + 1 * p.val = t.val * 512 + p.val; omega
  | ⟨1, _⟩ => show win1_4.index t (1 : Fin 2) * 256 + 1 * q.val = q.val; omega

/-- An index of the array is in point t's block iff each coordinate is in the block's range on its axis. -/
theorem mem_blk4 (t : Fin cfg1.N) (i : S4096x256.Idx) :
    i ∈ ((cfg1.win 4).blk t).view.set ↔ ∀ a : Fin 2, win1_4.index t a * S512x256.size a ≤ (i a).val ∧ (i a).val < win1_4.index t a * S512x256.size a + S512x256.size a := by
  show i ∈ ((View.whole main_call0_v8).slice (win1_4.rect t)).set ↔ _
  rw [View.set_slice_whole, Rect.mem_set_unit]
  exact Iff.rfl

/-- Every row of the array is in the block of the point row / 512, which writes back. -/
theorem cover4 (i : S4096x256.Idx) : ∃ t : Fin cfg1.N, (cfg1.win 4).flush t = true ∧ i ∈ ((cfg1.win 4).blk t).view.set := by
  have hi0 : (i 0).val < 4096 := (i 0).isLt
  have hi1 : (i 1).val < 256 := (i 1).isLt
  have hN : cfg1.N = 8 := N_1
  let t : Fin cfg1.N := ⟨(i 0).val / 512, by rw [hN]; omega⟩
  have e := idx_facts t
  have ht : t.val = (i 0).val / 512 := rfl
  refine ⟨t, flush1_4 t, ?_⟩
  rw [mem_blk4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 256 ≤ (i 1).val ∧ (i 1).val < win1_4.index t (1 : Fin 2) * 256 + 256; omega

/-- What point t writes back is block t of `stage2` of the operand arrays. -/
theorem flushed4_eq (c : Dev nD) (t : Fin cfg1.N) :
    (dat1 V c).flushed 4 t = ((cfg1.win 4).blk t).view.read (Elt Ideal)
      (stage2 (V c main_call0_v6_1) (V c main_call0_v6_0) (V c main_call0_v1) (V c main_call0_v7)) := by
  show (cfg1.win 4).cut (grid1.coords t) ((dat1 V c).after 4 t) = _
  rw [after1_4]
  unfold out1_4
  rw [View.canon_unit_zero hz]
  simp only [View.ld_unit_zero (S := S512x4096) hz, View.ld_unit_zero (S := S4096x256) hz, View.ld_unit_zero (S := S1x256) hz,
    View.ld_unit_zero (S := S256x256) hz]
  funext y
  obtain ⟨p, q, rfl⟩ : ∃ (p : Fin 512) (q : Fin 256), y = ix2 p q := ⟨y 0, y 1, eq_ix2 y⟩
  show k1_pay1 (iblk1 V c 0 t) (iblk1 V c 1 t) (iblk1 V c 2 t) (iblk1 V c 3 t) (ix2 p q)
    = stage2 (V c main_call0_v6_1) (V c main_call0_v6_0) (V c main_call0_v1) (V c main_call0_v7)
        (((cfg1.win 4).blk t).view.emb (ix2 p q))
  rw [emb4]
  exact block2 (V c main_call0_v6_1) (V c main_call0_v6_0) (V c main_call0_v1) (V c main_call0_v7)
    (iblk1 V c 0 t) (iblk1 V c 1 t) (iblk1 V c 2 t) (iblk1 V c 3 t) (pt t)
    (read0 V c t) (read1 V c t) (read2 V c t) (read3 V c t) p q

/-- The support's array after the region. -/
theorem final4 (c : Dev nD) :
    (dat1 V c).arrAt 4 cfg1.N
      = stage2 (V c main_call0_v6_1) (V c main_call0_v6_0) (V c main_call0_v1) (V c main_call0_v7) :=
  (dat1 V c).arrAt_eq_of_cover 4 _ (fun t _ => flushed4_eq V c t) cover4

end Cert.KernelIdeal.Region1

end
-- ==== Proof.Region2.lean ====
/-
  The third kernel's result array as a whole-array function of what the region finds in its operand arrays:
  the last rectified layer (`Blocks.stage3`).  Each grid point writes back one block of 512 rows; the eight
  blocks tile the array, so the array ends as the one function whose blocks they are.
-/
import proofs.«149278_g61065845015369_cont_9to1c4b_553_3_alg».proof.Proof.Gen.KernelIdeal.Frame
import proofs.«149278_g61065845015369_cont_9to1c4b_553_3_alg».proof.Proof.Blocks

noncomputable section

namespace Cert.KernelIdeal.Region2

open Cert.KernelIdeal Cert.KernelIdeal.Gen Cert.KernelIdeal.Blocks Cert.Gcn
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- A grid point as a number below eight. -/
def pt (t : Fin cfg2.N) : Fin 8 := ⟨t.val, lt_of_lt_of_eq t.isLt N_2⟩

/-- The printed index maps over the grid: the adjacency's and the output's blocks move down one block of rows per
    point; every other operand is staged whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t is rows 512·t … 512·t + 511 of its array. -/
theorem read0 (c : Dev nD) (t : Fin cfg2.N) (p : Fin 512) (j : Fin 4096) :
    iblk2 V c 0 t (ix2 p j) = V c main_call0_v6_1 (ix2 (row (pt t) p) j) := by
  have e := idx_facts t
  show V c main_call0_v6_1 (((cfg2.win 0).blk t).view.emb (ix2 p j)) = _
  refine congrArg (V c main_call0_v6_1) (funext fun a => Fin.ext ?_)
  match a with
  | ⟨0, _⟩ => show win2_0.index t (0 : Fin 2) * 512 + 1 * p.val = t.val * 512 + p.val; omega
  | ⟨1, _⟩ => show win2_0.index t (1 : Fin 2) * 4096 + 1 * j.val = j.val; omega

/-- Window 1's block is its whole array at every point. -/
theorem read1 (c : Dev nD) (t : Fin cfg2.N) : (iblk2 V c 1 t : S4096x256.Idx → EReal) = V c main_call0_v8 := by
  have e := idx_facts t
  funext y
  show V c main_call0_v8 (((cfg2.win 1).blk t).view.emb y) = V c main_call0_v8 y
  refine congrArg (V c main_call0_v8) (funext fun a => Fin.ext ?_)
  match a with
  | ⟨0, _⟩ => show win2_1.index t (0 : Fin 2) * 4096 + 1 * (y 0).val = (y 0).val; omega
  | ⟨1, _⟩ => show win2_1.index t (1 : Fin 2) * 256 + 1 * (y 1).val = (y 1).val; omega

/-- Window 2's block is its whole array at every point. -/
theorem read2 (c : Dev nD) (t : Fin cfg2.N) : (iblk2 V c 2 t : S1x256.Idx → EReal) = V c main_call0_v2 := by
  have e := idx_facts t
  funext y
  show V c main_call0_v2 (((cfg2.win 2).blk t).view.emb y) = V c main_call0_v2 y
  refine congrArg (V c main_call0_v2) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- An entry of output window 3's block at point t sits in the array at row 512·t + p. -/
theorem emb3 (t : Fin cfg2.N) (p : Fin 512) (q : Fin 256) :
    ((cfg2.win 3).blk t).view.emb (ix2 p q) = ix2 (row (pt t) p) q := by
  have e := idx_facts t
  refine funext fun a => Fin.ext ?_
  match a with
  | ⟨0, _⟩ => show win2_3.index t (0 : Fin 2) * 512 + 1 * p.val = t.val * 512 + p.val; omega
  | ⟨1, _⟩ => show win2_3.index t (1 : Fin 2) * 256 + 1 * q.val = q.val; omega

/-- An index of the array is in point t's block iff each coordinate is in the block's range on its axis. -/
theorem mem_blk3 (t : Fin cfg2.N) (i : S4096x256.Idx) :
    i ∈ ((cfg2.win 3).blk t).view.set ↔ ∀ a : Fin 2, win2_3.index t a * S512x256.size a ≤ (i a).val ∧ (i a).val < win2_3.index t a * S512x256.size a + S512x256.size a := by
  show i ∈ ((View.whole main_v0).slice (win2_3.rect t)).set ↔ _
  rw [View.set_slice_whole, Rect.mem_set_unit]
  exact Iff.rfl

/-- Every row of the array is in the block of the point row / 512, which writes back. -/
theorem cover3 (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  have hN : cfg2.N = 8 := N_2
  let t : Fin cfg2.N := ⟨(i 0).val / 512, by rw [hN]; omega⟩
  have e := idx_facts t
  have ht : t.val = (i 0).val / 512 := rfl
  refine ⟨t, flush2_3 t, ?_⟩
  rw [mem_blk3]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 256 ≤ (i 1).val ∧ (i 1).val < win2_3.index t (1 : Fin 2) * 256 + 256; omega

/-- What point t writes back is block t of `stage3` of the operand arrays. -/
theorem flushed3_eq (c : Dev nD) (t : Fin cfg2.N) :
    (dat2 V c).flushed 3 t = ((cfg2.win 3).blk t).view.read (Elt Ideal)
      (stage3 (V c main_call0_v6_1) (V c main_call0_v8) (V c main_call0_v2)) := by
  show (cfg2.win 3).cut (grid2.coords t) ((dat2 V c).after 3 t) = _
  rw [after2_3]
  unfold out2_3
  rw [View.canon_unit_zero hz]
  simp only [View.ld_unit_zero (S := S512x4096) hz, View.ld_unit_zero (S := S4096x256) hz, View.ld_unit_zero (S := S1x256) hz]
  funext y
  obtain ⟨p, q, rfl⟩ : ∃ (p : Fin 512) (q : Fin 256), y = ix2 p q := ⟨y 0, y 1, eq_ix2 y⟩
  show k2_pay1 (iblk2 V c 0 t) (iblk2 V c 1 t) (iblk2 V c 2 t) (ix2 p q)
    = stage3 (V c main_call0_v6_1) (V c main_call0_v8) (V c main_call0_v2)
        (((cfg2.win 3).blk t).view.emb (ix2 p q))
  rw [emb3]
  exact block3 (V c main_call0_v6_1) (V c main_call0_v8) (V c main_call0_v2)
    (iblk2 V c 0 t) (iblk2 V c 1 t) (iblk2 V c 2 t) (pt t)
    (read0 V c t) (read1 V c t) (read2 V c t) p q

/-- The result array after the region. -/
theorem final3 (c : Dev nD) :
    (dat2 V c).arrAt 3 cfg2.N = stage3 (V c main_call0_v6_1) (V c main_call0_v8) (V c main_call0_v2) :=
  (dat2 V c).arrAt_eq_of_cover 3 _ (fun t _ => flushed3_eq V c t) cover3

end Cert.KernelIdeal.Region2

end
-- ==== Proof.Walk.lean ====
/-
  The kernel program's result as ONE function of its argument arrays.

  The run leaves in the result buffer what the third region's write-backs leave; that region found in its
  operand arrays the adjacency's copy and the second region's result; the second found the first region's two
  results; the first found the arguments through the host's reshapes and changes of float format, which are the
  identity on the extended reals.  Walking back region by region, each region's result being the whole-array
  function of `Blocks` of what it found, the result buffer holds the three-layer network of `Cert.Gcn.net`
  with the first layer's product taken as (A · X) · W1.
-/
import proofs.«149278_g61065845015369_cont_9to1c4b_553_3_alg».proof.Proof.Gen.KernelIdeal.Frame
import proofs.«149278_g61065845015369_cont_9to1c4b_553_3_alg».proof.Proof.Region0
import proofs.«149278_g61065845015369_cont_9to1c4b_553_3_alg».proof.Proof.Region1
import proofs.«149278_g61065845015369_cont_9to1c4b_553_3_alg».proof.Proof.Region2
import Idealize.ShloMosaic.Lib.StableHlo.Run
import Idealize.ShloMosaic.Lib.ValueLayout

noncomputable section

namespace Cert.KernelIdeal.Walk

open Cert.KernelIdeal Cert.KernelIdeal.Gen Cert.KernelIdeal.Blocks Cert.Gcn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments, and the one-row forms of the three biases -/

abbrev argX (c : Dev nD) : S4096x512.Idx → EReal := m ((c : Thread nD τ).loc main_arg0)
abbrev argA (c : Dev nD) : S4096x4096.Idx → EReal := m ((c : Thread nD τ).loc main_arg1)
abbrev argW1 (c : Dev nD) : S512x2048.Idx → EReal := m ((c : Thread nD τ).loc main_arg2)
abbrev argB1 (c : Dev nD) : S2048.Idx → EReal := m ((c : Thread nD τ).loc main_arg3)
abbrev argW2 (c : Dev nD) : S2048x256.Idx → EReal := m ((c : Thread nD τ).loc main_arg4)
abbrev argB2 (c : Dev nD) : S256.Idx → EReal := m ((c : Thread nD τ).loc main_arg5)
abbrev argW3 (c : Dev nD) : S256x256.Idx → EReal := m ((c : Thread nD τ).loc main_arg6)
abbrev argB3 (c : Dev nD) : S256.Idx → EReal := m ((c : Thread nD τ).loc main_arg7)

abbrev rowB1 (c : Dev nD) : S1x2048.Idx → EReal := shapeCast S1x2048 (argB1 m c) shapeCasts_S2048_S1x2048
abbrev rowB2 (c : Dev nD) : S1x256.Idx → EReal := shapeCast S1x256 (argB2 m c) shapeCasts_S256_S1x256
abbrev rowB3 (c : Dev nD) : S1x256.Idx → EReal := shapeCast S1x256 (argB3 m c) shapeCasts_S256_S1x256

/-! ## What the first region finds -/

theorem in0_adj (c : Dev nD) : V1 m ρ c main_arg1 = argA m c := by
  dsimp only [V1, W1, hostOps0]; after_results <;> rfl
theorem in0_x (c : Dev nD) : V1 m ρ c main_call0_v3 = argX m c := by
  dsimp only [V1, W1, hostOps0]; after_results <;> rfl
theorem in0_w1 (c : Dev nD) : V1 m ρ c main_call0_v4 = argW1 m c := by
  dsimp only [V1, W1, hostOps0]; after_results <;> rfl
theorem in0_b1 (c : Dev nD) : V1 m ρ c main_call0_v0 = rowB1 m c := by
  dsimp only [V1, W1, hostOps0]; after_results <;> rfl
theorem in0_w2 (c : Dev nD) : V1 m ρ c main_call0_v5 = argW2 m c := by
  dsimp only [V1, W1, hostOps0]; after_results <;> rfl

/-- The second layer's support, as the first region leaves it. -/
abbrev sup2 (c : Dev nD) : S4096x256.Idx → EReal := stage1 (argA m c) (argX m c) (argW1 m c) (rowB1 m c) (argW2 m c)

/-! ## What the second region finds -/

theorem in1_adj (c : Dev nD) : V3 m ρ c main_call0_v6_1 = argA m c := by
  have h : V3 m ρ c main_call0_v6_1 = W2 m ρ c (Proc.devRef .tc main_call0_v6_1) := by
    dsimp only [V3, W3, hostOps1]; after_results <;> rfl
  refine h.trans ((W2_arr m ρ c 6).trans ((Region0.final6 (V1 m ρ) c).trans ?_))
  exact in0_adj m ρ c

theorem in1_s (c : Dev nD) : V3 m ρ c main_call0_v6_0 = sup2 m c := by
  have h : V3 m ρ c main_call0_v6_0 = W2 m ρ c (Proc.devRef .tc main_call0_v6_0) := by
    dsimp only [V3, W3, hostOps1]; after_results <;> rfl
  refine h.trans ((W2_arr m ρ c 5).trans ((Region0.final5 (V1 m ρ) c).trans ?_))
  rw [in0_adj, in0_x, in0_w1, in0_b1, in0_w2]

theorem in1_b2 (c : Dev nD) : V3 m ρ c main_call0_v1 = rowB2 m c := by
  have h : V3 m ρ c main_call0_v1 = W2 m ρ c (Proc.devRef .tc main_call0_v1) := by
    dsimp only [V3, W3, hostOps1]; after_results <;> rfl
  refine h.trans ((W2_of_ne m ρ c main_call0_v1 (by decide)).trans ?_)
  dsimp only [W1, hostOps0]; after_results <;> rfl

theorem in1_w3 (c : Dev nD) : V3 m ρ c main_call0_v7 = argW3 m c := by
  have h : (V3 m ρ c main_call0_v7 : S256x256.Idx → EReal) = W2 m ρ c (Proc.devRef .tc main_arg6) := by
    dsimp only [V3, W3, hostOps1]; after_results <;> rfl
  have h2 : W2 m ρ c (Proc.devRef .tc main_arg6) = argW3 m c := by
    refine (W2_of_ne m ρ c main_arg6 (by decide)).trans ?_
    dsimp only [W1, hostOps0]; after_results <;> rfl
  exact h.trans h2

/-- The third layer's support, as the second region leaves it. -/
abbrev sup3 (c : Dev nD) : S4096x256.Idx → EReal := stage2 (argA m c) (sup2 m c) (rowB2 m c) (argW3 m c)

/-! ## What the third region finds -/

theorem in2_adj (c : Dev nD) : V4 m ρ c main_call0_v6_1 = argA m c :=
  (W4_arr m ρ c 0).trans (((dat1 (V3 m ρ) c).arrAt_in 0 rfl _).trans ((A_eq1 (V3 m ρ) c 0).trans (in1_adj m ρ c)))

theorem in2_s (c : Dev nD) : V4 m ρ c main_call0_v8 = sup3 m c := by
  refine (W4_arr m ρ c 4).trans ((Region1.final4 (V3 m ρ) c).trans ?_)
  rw [in1_adj, in1_s, in1_b2, in1_w3]

theorem in2_b3 (c : Dev nD) : V4 m ρ c main_call0_v2 = rowB3 m c := by
  refine (W4_of_ne m ρ c main_call0_v2 (by decide)).trans ?_
  have h : W3 m ρ c (Proc.devRef .tc main_call0_v2) = W2 m ρ c (Proc.devRef .tc main_call0_v2) := by
    dsimp only [W3, hostOps1]; after_results <;> rfl
  refine h.trans ((W2_of_ne m ρ c main_call0_v2 (by decide)).trans ?_)
  dsimp only [W1, hostOps0]; after_results <;> rfl

/-! ## The result -/

/-- The result buffer after the run: the last layer of what the regions computed in turn. -/
theorem result_stages (c : Dev nD) :
    W5 m ρ c (Proc.devRef .tc main_v0) = stage3 (argA m c) (sup3 m c) (rowB3 m c) := by
  refine (W5_arr m ρ c 3).trans ((Region2.final3 (V4 m ρ) c).trans ?_)
  rw [in2_adj, in2_s, in2_b3]

/-- A bias reshaped to one row, read by column, is the bias read by position. -/
theorem bias_row {n : ℕ} (b : (⟨1, ![n]⟩ : Shape).Idx → EReal) (h : (⟨1, ![n]⟩ : Shape).ShapeCasts ⟨2, ![1, n]⟩) :
    bias (shapeCast ⟨2, ![1, n]⟩ b h) = entries b :=
  funext fun k => shapeCast_a_1a_apply b h 0 k

/-- The result buffer after the run is the three-layer network of the arguments, the first layer's product taken
    as (A · X) · W1. -/
theorem result (c : Dev nD) :
    W5 m ρ c (Proc.devRef .tc main_v0)
      = asArray (net (rows (argA m c)) (hidLeft (rows (argA m c)) (rows (argX m c)) (rows (argW1 m c)) (entries (argB1 m c)))
          (rows (argW2 m c)) (entries (argB2 m c)) (rows (argW3 m c)) (entries (argB3 m c))) := by
  rw [result_stages]
  simp only [stage3, sup3, stage2, sup2, stage1, rowB1, rowB2, rowB3, rows_asArray, bias_row, net]

end Cert.KernelIdeal.Walk

end
-- ==== Proof.Finite.lean ====
/-
  What the precondition gives: every entry of the node features X, of the adjacency A and of the first weight
  matrix W1 is a real number.  The precondition is a conjunction, one conjunct per input, each saying that
  |v| < +inf at every index; on the extended reals |v| = max v (-v) is +inf exactly at the two infinities,
  so an entry with |v| < +inf is the coercion of a real.
-/
import proofs.«149278_g61065845015369_cont_9to1c4b_553_3_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

/-- The f32 word 0x7F800000 is +inf. -/
theorem inf_word : Ideal.ofBits .f32 0x7F800000#32 = ⊤ := by simp [Ideal.ofBits, Ideal.ieee]

/-- An extended real whose absolute value compares below +inf is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  rw [inf_word] at h
  induction x using EReal.rec with
  | bot => exact absurd h (by simp [FloatOps.cmpf, FloatOps.hostAbsf, Ideal.cmp])
  | top => exact absurd h (by simp [FloatOps.cmpf, FloatOps.hostAbsf, Ideal.cmp])
  | coe r => exact ⟨r, rfl⟩

/-- One conjunct of the precondition, read at an index. -/
theorem real_of_all {s : Shape} {axes : List (Fin s.rank)} (v : FVec Ideal s .f32) (hb : S_.BroadcastsInDim s (![] : Fin 0 → Fin s.rank))
    (hr : s.ReducesTo axes S_) (hu : 0 < S_.numel)
    (e : Host.reduce IntOp.andi (cmpf .olt (Host.absf v) (broadcastInDim s ![] hb (constant (F := Ideal) S_ .f32 0x7F800000#32)))
      (constantI S_ 1 1#1) hr hu ValueIdx.ix0 = 1#1) (i : s.Idx) : ∃ r : ℝ, v i = r :=
  real_of_abs_lt (v i) (Host.reduce_andi_all _ _ hr hu ValueIdx.ix0 e i)

/-- Under the precondition the entries of X, A and W1 are reals. -/
theorem reals_of_pre (a0 : FVec Ideal S4096x512 .f32) (a1 : FVec Ideal S4096x4096 .f32) (a2 : FVec Ideal S512x2048 .f32)
    (a3 : FVec Ideal S2048 .f32) (a4 : FVec Ideal S2048x256 .f32) (a5 : FVec Ideal S256 .f32) (a6 : FVec Ideal S256x256 .f32)
    (a7 : FVec Ideal S256 .f32) (h : fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn, fn_part1, fn_part2] at h0
  obtain ⟨h33, -⟩ := IntOp.andi_eq_one.mp h0
  obtain ⟨h28, -⟩ := IntOp.andi_eq_one.mp h33
  obtain ⟨h23, -⟩ := IntOp.andi_eq_one.mp h28
  obtain ⟨h18, -⟩ := IntOp.andi_eq_one.mp h23
  obtain ⟨h13, -⟩ := IntOp.andi_eq_one.mp h18
  obtain ⟨h8, h12⟩ := IntOp.andi_eq_one.mp h13
  obtain ⟨h3, h7⟩ := IntOp.andi_eq_one.mp h8
  exact ⟨real_of_all a0 _ _ _ h3, real_of_all a1 _ _ _ h7, real_of_all a2 _ _ _ h12⟩

end Cert.Pre_finite_inputs.Finite

end
-- ==== Proof.lean ====
/-
  The certificate: a three-layer graph-convolution network computed by three fused kernels against its plain
  reference, equal on the extended reals whenever the inputs are finite.

  Both programs compute  relu(A · (relu(A · (leaky(L1) · W2) + b2) · W3) + b3)  entry by entry, where the
  reference forms the first layer as  L1 = A · (X · W1) + b1  and the kernels as  L1 = (A · X) · W1 + b1.  The kernels'
  changes of float format are the identity on the extended reals, their matrix products into a zero accumulator and
  the reference's products are the same sums, and their tiling by blocks of 512 rows reassembles the whole arrays.
  What is left is the associativity of the first layer's product, which holds because the precondition makes every
  entry of A, X and W1 a real number (`Cert.Gcn.hidLeft_eq_hidRight`); it is the only use of the precondition.
  The three programs' frames are the generated ones (the reference's is its generated run with the result dropped), and
  the idealization rewrote nothing, so there is nothing to preserve.
-/
import proofs.«149278_g61065845015369_cont_9to1c4b_553_3_alg».proof.Defs
import proofs.«149278_g61065845015369_cont_9to1c4b_553_3_alg».proof.Proof.Gen.Kernel
import proofs.«149278_g61065845015369_cont_9to1c4b_553_3_alg».proof.Proof.Gen.Kernel.Frame
import proofs.«149278_g61065845015369_cont_9to1c4b_553_3_alg».proof.Proof.Gen.KernelIdeal
import proofs.«149278_g61065845015369_cont_9to1c4b_553_3_alg».proof.Proof.Gen.KernelIdeal.Frame
import proofs.«149278_g61065845015369_cont_9to1c4b_553_3_alg».proof.Proof.Gen.ReferenceIdeal
import proofs.«149278_g61065845015369_cont_9to1c4b_553_3_alg».proof.Proof.Gen.Pre_finite_inputs
import proofs.«149278_g61065845015369_cont_9to1c4b_553_3_alg».proof.Proof.Gen.ReferenceIdeal.Run
import proofs.«149278_g61065845015369_cont_9to1c4b_553_3_alg».proof.Proof.Gen.ReferenceIdeal.Read
import proofs.«149278_g61065845015369_cont_9to1c4b_553_3_alg».proof.Proof.Algebra
import proofs.«149278_g61065845015369_cont_9to1c4b_553_3_alg».proof.Proof.RefValue
import proofs.«149278_g61065845015369_cont_9to1c4b_553_3_alg».proof.Proof.KernelRun
import proofs.«149278_g61065845015369_cont_9to1c4b_553_3_alg».proof.Proof.Walk
import proofs.«149278_g61065845015369_cont_9to1c4b_553_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Gcn

/-- The network of the eight argument arrays, given how the first layer's activations are formed. -/
def network
    (hid : (Fin 4096 → Fin 4096 → EReal) → (Fin 4096 → Fin 512 → EReal) → (Fin 512 → Fin 2048 → EReal) → (Fin 2048 → EReal)
      → Fin 4096 → Fin 2048 → EReal)
    (x0 : (⟨2, ![4096, 512]⟩ : Shape).Idx → EReal) (x1 : (⟨2, ![4096, 4096]⟩ : Shape).Idx → EReal)
    (x2 : (⟨2, ![512, 2048]⟩ : Shape).Idx → EReal) (x3 : (⟨1, ![2048]⟩ : Shape).Idx → EReal)
    (x4 : (⟨2, ![2048, 256]⟩ : Shape).Idx → EReal) (x5 : (⟨1, ![256]⟩ : Shape).Idx → EReal)
    (x6 : (⟨2, ![256, 256]⟩ : Shape).Idx → EReal) (x7 : (⟨1, ![256]⟩ : Shape).Idx → EReal) :
    (⟨2, ![4096, 256]⟩ : Shape).Idx → EReal :=
  asArray (net (rows x1) (hid (rows x1) (rows x0) (rows x2) (entries x3)) (rows x4) (entries x5) (rows x6) (entries x7))

/-! ## The frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The two runs, each result as the network of its program's arguments -/

open Cert.KernelIdeal in
/-- The kernel program ends with the network whose first layer is formed as (A · X) · W1. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
        = network hidLeft (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (Cert.KernelIdeal.Walk.result m ρ c), (h c).2⟩)
    (Cert.KernelIdeal.Run.run_value (F := Ideal) m ρ)

open Cert.ReferenceIdeal in
/-- The reference ends with the network whose first layer is formed as A · (X · W1). -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
        = network hidRight (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans ((Cert.ReferenceIdeal.Read.val_main_v21_eq _ _ _ _ _ _ _ _).trans
      (Cert.ReferenceIdeal.RefValue.value _ _ _ _ _ _ _ _)), (h c).2⟩)
    (Cert.ReferenceIdeal.Value.run (F := Ideal) m ρ)

/-! ## The two results are equal -/

/-- With real entries in X, A and W1 the two networks are one function. -/
theorem network_eq (x0 : (⟨2, ![4096, 512]⟩ : Shape).Idx → EReal) (x1 : (⟨2, ![4096, 4096]⟩ : Shape).Idx → EReal)
    (x2 : (⟨2, ![512, 2048]⟩ : Shape).Idx → EReal) (x3 : (⟨1, ![2048]⟩ : Shape).Idx → EReal)
    (x4 : (⟨2, ![2048, 256]⟩ : Shape).Idx → EReal) (x5 : (⟨1, ![256]⟩ : Shape).Idx → EReal)
    (x6 : (⟨2, ![256, 256]⟩ : Shape).Idx → EReal) (x7 : (⟨1, ![256]⟩ : Shape).Idx → EReal)
    (h0 : ∀ i, ∃ r : ℝ, x0 i = r) (h1 : ∀ i, ∃ r : ℝ, x1 i = r) (h2 : ∀ i, ∃ r : ℝ, x2 i = r) :
    network hidRight x0 x1 x2 x3 x4 x5 x6 x7 = network hidLeft x0 x1 x2 x3 x4 x5 x6 x7 := by
  unfold network
  rw [hidLeft_eq_hidRight (rows x1) (rows x0) (rows x2) (entries x3) (fun r j => h1 _) (fun j n => h0 _) (fun n k => h2 _)]

theorem algebraic : Cert.algebraic_KernelIdeal_ReferenceIdeal := by
  intro m ρ m' ρ' hpre hagree
  refine ⟨_, kernel_run m ρ, ?_⟩
  refine (θ_run Cert.ReferenceIdeal.defs _ _).mono (fun r h c => ⟨(h c).1.trans ?_, (h c).2⟩) (reference_run m' ρ')
  obtain ⟨e0, e1, e2, e3, e4, e5, e6, e7⟩ := hagree c
  obtain ⟨f0, f1, f2⟩ := Cert.Pre_finite_inputs.Finite.reals_of_pre _ _ _ _ _ _ _ _ (hpre c)
  rw [e0, e1, e2, e3, e4, e5, e6, e7]
  exact network_eq _ _ _ _ _ _ _ _ f0 f1 f2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
